-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S117x1024 : Shape := ⟨2, ![117, 1024]⟩
abbrev S117 : Shape := ⟨1, ![117]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S117x1024 : S_.BroadcastsInDim S117x1024 (![] : Fin 0 → Fin S117x1024.rank)
  reducesTo_S117x1024_S_d0_1 : S117x1024.ReducesTo [0, 1] S_
  bcast_S_S117 : S_.BroadcastsInDim S117 (![] : Fin 0 → Fin S117.rank)
  reducesTo_S117_S_d0 : S117.ReducesTo [0] S_

variable [Facts]

def fn {F : FTy → Type} [FloatOps F] (main_arg0 : FVec F S20000x1024 .f32) (main_arg1 : FVec F S117x1024 .f32) (main_arg2 : FVec F S117 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S117x1024 .f32 := Host.absf main_arg1
  let main_cst_0 : FVec F S_ .f32 := constant S_ .f32 0x7F800000#32
  let main_v5 : FVec F S117x1024 .f32 := broadcastInDim S117x1024 ![] bcast_S_S117x1024 main_cst_0
  let main_v6 : IVec S117x1024 1 := cmpf .olt main_v4 main_v5
  let main_c_1 : IVec S_ 1 := constantI S_ 1 1#1
  let main_v7 : IVec S_ 1 := (fun x v => Host.reduce IntOp.andi x v reducesTo_S117x1024_S_d0_1 h_S_) main_v6 main_c_1
  let main_v8 : IVec S_ 1 := andi main_v3 main_v7
  let main_v9 : FVec F S117 .f32 := Host.absf main_arg2
  let main_cst_2 : FVec F S_ .f32 := constant S_ .f32 0x7F800000#32
  let main_v10 : FVec F S117 .f32 := broadcastInDim S117 ![] bcast_S_S117 main_cst_2
  let main_v11 : IVec S117 1 := cmpf .olt main_v9 main_v10
  let main_c_3 : IVec S_ 1 := constantI S_ 1 1#1
  let main_v12 : IVec S_ 1 := (fun x v => Host.reduce IntOp.andi x v reducesTo_S117_S_d0 h_S_) main_v11 main_c_3
  let main_v13 : IVec S_ 1 := andi main_v8 main_v12
  main_v13
-- ==== Kernel.lean ====
abbrev S20000x1024 : Shape := ⟨2, ![20000, 1024]⟩
abbrev S117x1024 : Shape := ⟨2, ![117, 1024]⟩
abbrev S117 : Shape := ⟨1, ![117]⟩
abbrev S_ : Shape := ⟨0, ![]⟩
abbrev S11x1024 : Shape := ⟨2, ![11, 1024]⟩
abbrev S128x1024 : Shape := ⟨2, ![128, 1024]⟩
abbrev S1024x128 : Shape := ⟨2, ![1024, 128]⟩
abbrev S11 : Shape := ⟨1, ![11]⟩
abbrev S128 : Shape := ⟨1, ![128]⟩
abbrev S1x128 : Shape := ⟨2, ![1, 128]⟩
abbrev S20000x128 : Shape := ⟨2, ![20000, 128]⟩
abbrev S2000x1024 : Shape := ⟨2, ![2000, 1024]⟩
abbrev S2000x128 : Shape := ⟨2, ![2000, 128]⟩
abbrev S20000x117 : Shape := ⟨2, ![20000, 117]⟩

abbrev nBuf : Space → Nat
  | .hbm => 16
  | .vmem => 6
  | .smem => 0
  | _ => 0

abbrev bufTy : (tb : Table) → Fin (tcTables nBuf tb) → BufTy
  | .hbm, ⟨0, _⟩ => ⟨S20000x1024, .f32⟩
  | .hbm, ⟨1, _⟩ => ⟨S117x1024, .f32⟩
  | .hbm, ⟨2, _⟩ => ⟨S117, .f32⟩
  | .hbm, ⟨3, _⟩ => ⟨S_, .f32⟩
  | .hbm, ⟨4, _⟩ => ⟨S11x1024, .f32⟩
  | .hbm, ⟨5, _⟩ => ⟨S128x1024, .f32⟩
  | .hbm, ⟨6, _⟩ => ⟨S1024x128, .f32⟩
  | .hbm, ⟨7, _⟩ => ⟨S_, .f32⟩
  | .hbm, ⟨8, _⟩ => ⟨S11, .f32⟩
  | .hbm, ⟨9, _⟩ => ⟨S128, .f32⟩
  | .hbm, ⟨10, _⟩ => ⟨S1x128, .f32⟩
  | .hbm, ⟨11, _⟩ => ⟨S20000x128, .f32⟩
  | .hbm, ⟨12, _⟩ => ⟨S20000x117, .f32⟩
  | .hbm, ⟨13, _⟩ => ⟨S_, .f32⟩
  | .hbm, ⟨14, _⟩ => ⟨S20000x117, .f32⟩
  | .hbm, ⟨15, _⟩ => ⟨S20000x117, .f32⟩
  | .local _ .vmem, ⟨0, _⟩ => ⟨S2000x1024, .f32⟩
  | .local _ .vmem, ⟨1, _⟩ => ⟨S2000x1024, .f32⟩
  | .local _ .vmem, ⟨2, _⟩ => ⟨S1024x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S11x1024 : S_.BroadcastsInDim S11x1024 (![] : Fin 0 → Fin S11x1024.rank)
  concatenates_S117x1024_S11x1024_S128x1024_d0 : Shape.Concatenates [S117x1024, S11x1024] S128x1024 0
  transposes_S128x1024_S1024x128_1_0 : S128x1024.Transposes [1, 0] S1024x128
  bcast_S_S11 : S_.BroadcastsInDim S11 (![] : Fin 0 → Fin S11.rank)
  concatenates_S117_S11_S128_d0 : Shape.Concatenates [S117, S11] S128 0
  shapeCasts_S128_S1x128 : S128.ShapeCasts S1x128
  inb_S2000x1024_S2000x1024_0_0 : ∀ a, (![0, 0] : Fin 2 → Nat) a + S2000x1024.size a ≤ S2000x1024.size a
  h_S2000x1024 : 0 < S2000x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S20000x128_S20000x117_0_0 : S20000x128.Slices ![0, 0] S20000x117
  bcast_S_S20000x117 : S_.BroadcastsInDim S20000x117 (![] : Fin 0 → Fin S20000x117.rank)
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S20000x1024.size a
  hwx0_0 : ∀ i : grid0.Coords, EltTy.bits .f32 = 32 ∨ (Rect.block (s := S20000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)

variable [Facts₀]

def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S117x1024 : Shape := ⟨2, ![117, 1024]⟩
abbrev S117 : Shape := ⟨1, ![117]⟩
abbrev S1024x117 : Shape := ⟨2, ![1024, 117]⟩
abbrev S20000x117 : Shape := ⟨2, ![20000, 117]⟩
abbrev S1x117 : Shape := ⟨2, ![1, 117]⟩

abbrev nBuf : Space → Nat
  | .hbm => 8
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S117x1024, .f32⟩
  | .hbm, ⟨2, _⟩ => ⟨S117, .f32⟩
  | .hbm, ⟨3, _⟩ => ⟨S1024x117, .f32⟩
  | .hbm, ⟨4, _⟩ => ⟨S20000x117, .f32⟩
  | .hbm, ⟨5, _⟩ => ⟨S1x117, .f32⟩
  | .hbm, ⟨6, _⟩ => ⟨S20000x117, .f32⟩
  | .hbm, ⟨7, _⟩ => ⟨S20000x117, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S117x1024_S1024x117_1_0 : S117x1024.Transposes [1, 0] S1024x117
  bcast_S117_S1x117_1 : S117.BroadcastsInDim S1x117 (![1] : Fin 1 → Fin S1x117.rank)
  bcast_S1x117_S20000x117_0_1 : S1x117.BroadcastsInDim S20000x117 (![0, 1] : Fin 2 → Fin S20000x117.rank)
  dot_S20000x1024_S1024x117_S20000x117_1_0_0_1_n_n_wf : DotDims.WF S20000x1024 S1024x117 S20000x117 [1] [0] [0] [1] [] []

variable [Facts₀]

def dot_S20000x1024_S1024x117_S20000x117_1_0_0_1_n_n : DotDims S20000x1024 S1024x117 S20000x117 where
  lhsContracting := [1]
  rhsContracting := [0]
  lhsNonContracting := [0]
  rhsNonContracting := [1]
  lhsBatch := []
  rhsBatch := []
  wf := dot_S20000x1024_S1024x117_S20000x117_1_0_0_1_n_n_wf

class Facts : Prop extends Facts₀ where

variable [Facts]
-- ==== Proof.Spec.lean ====
/-
  The linear layer, index by index on the extended reals.

  `scores x W b` at (r, c), c < 117, is the sum over k < 1024 of x (r, k) · W (c, k), plus b c: one row of x against
  one row of W, then the bias of that class. `padded x wt bp` is the same product written against an operand that is
  already transposed and widened to 128 columns, wt (k, c) and bp (0, c): what a lane-padded tile product leaves in a
  20000 × 128 array. Where wt (k, c) = W (c, k) and bp (0, c) = b c on the first 117 columns, `padded` restricted to
  those columns is `scores` (`padded_eq_scores`): the two sums agree term by term, so no law of the extended reals
  beyond rewriting equal terms is used, and nothing needs the entries to be finite.
-/
import Idealize.ShloMosaic.PureOps.Ideal
import Idealize.ShloMosaic.Lib.ValueIdx

noncomputable section

open scoped BigOperators

namespace Cert.LinearLayer

open Idealize.ShloMosaic Idealize.ShloMosaic.ValueIdx

/-- The layer's result: row r of x against row c of W, plus the bias of class c. -/
def scores (x : FVec Ideal ⟨2, ![20000, 1024]⟩ .f32) (W : FVec Ideal ⟨2, ![117, 1024]⟩ .f32) (b : FVec Ideal ⟨1, ![117]⟩ .f32) :
    FVec Ideal ⟨2, ![20000, 117]⟩ .f32 :=
  fun i => ∑ k : Fin 1024, x (ix2 (i 0) k) * W (ix2 (i 1) k) + b (ix1 (i 1))

/-- The same product against a transposed weight of 128 columns and a bias row of 128 columns. -/
def padded (x : FVec Ideal ⟨2, ![20000, 1024]⟩ .f32) (wt : FVec Ideal ⟨2, ![1024, 128]⟩ .f32) (bp : FVec Ideal ⟨2, ![1, 128]⟩ .f32) :
    FVec Ideal ⟨2, ![20000, 128]⟩ .f32 :=
  fun i => ∑ k : Fin 1024, x (ix2 (i 0) k) * wt (ix2 k (i 1)) + bp (ix2 (0 : Fin 1) (i 1))

/-- A sum of products plus one more term is the padded product at an index, when the factors are the operands read along
    that index's row and column and the term is the bias at its column. -/
theorem padded_of_terms (x : FVec Ideal ⟨2, ![20000, 1024]⟩ .f32) (wt : FVec Ideal ⟨2, ![1024, 128]⟩ .f32)
    (bp : FVec Ideal ⟨2, ![1, 128]⟩ .f32) (i : (⟨2, ![20000, 128]⟩ : Shape).Idx) (f g : Fin 1024 → EReal) (e : EReal)
    (hf : ∀ k, f k = x (ix2 (i 0) k)) (hg : ∀ k, g k = wt (ix2 k (i 1))) (he : e = bp (ix2 (0 : Fin 1) (i 1))) :
    ∑ k : Fin 1024, f k * g k + e = padded x wt bp i := by
  show _ = ∑ k : Fin 1024, x (ix2 (i 0) k) * wt (ix2 k (i 1)) + bp (ix2 (0 : Fin 1) (i 1))
  rw [he]
  exact congrArg (· + _) (Finset.sum_congr rfl fun k _ => by rw [hf k, hg k])

/-- On the first 117 columns the padded product is the layer's result, when the padded operands hold W transposed and
    b there. The columns from 117 on are never read. -/
theorem padded_eq_scores (x : FVec Ideal ⟨2, ![20000, 1024]⟩ .f32) (W : FVec Ideal ⟨2, ![117, 1024]⟩ .f32) (b : FVec Ideal ⟨1, ![117]⟩ .f32)
    (wt : FVec Ideal ⟨2, ![1024, 128]⟩ .f32) (bp : FVec Ideal ⟨2, ![1, 128]⟩ .f32)
    (hw : ∀ (k : Fin 1024) (c : Fin 117), wt (ix2 k ⟨c.val, by omega⟩) = W (ix2 c k))
    (hb : ∀ c : Fin 117, bp (ix2 (0 : Fin 1) ⟨c.val, by omega⟩) = b (ix1 c))
    (r : Fin 20000) (c : Fin 117) :
    padded x wt bp (ix2 r ⟨c.val, by omega⟩) = scores x W b (ix2 r c) := by
  show ∑ k : Fin 1024, x (ix2 r k) * wt (ix2 k ⟨c.val, _⟩) + bp (ix2 (0 : Fin 1) ⟨c.val, _⟩)
      = ∑ k : Fin 1024, x (ix2 r k) * W (ix2 c k) + b (ix1 c)
  rw [hb c]
  exact congrArg (· + b (ix1 c)) (Finset.sum_congr rfl fun k _ => by rw [hw k c])

end Cert.LinearLayer

end
-- ==== Proof.RefScores.lean ====
/-
  The reference computes the layer's result. Its five host operations — transpose W, the product of x with the
  transposed W, the bias broadcast to a row and then to every row, the sum — read at an index (r, c) are the sum over k of
  x (r, k) times the transposed weight at (k, c), which is W (c, k), plus b c: `LinearLayer.scores`.
-/
import proofs.«162867_g50491635532034_cont_8to1_c_198_24_alg».proof.Proof.Gen.ReferenceIdeal.Read
import proofs.«162867_g50491635532034_cont_8to1_c_198_24_alg».proof.Proof.Spec

noncomputable section

open scoped BigOperators

namespace Cert.ReferenceIdeal.RefScores

open Cert.ReferenceIdeal Cert.ReferenceIdeal.Gen Cert.ReferenceIdeal.Read Idealize.ShloMosaic Idealize.ShloMosaic.ValueIdx

/-- The reference's result term is the layer's result, index by index. -/
theorem ref_eq_scores (x : FVec Ideal S20000x1024 .f32) (W : FVec Ideal S117x1024 .f32) (b : FVec Ideal S117 .f32) :
    val_main_v4 (F := Ideal) x W b = Cert.LinearLayer.scores x W b := by
  funext i
  -- the left factor's index is (r, k); the right factor's, through the transpose, is (c, k); the bias's is c
  have el : ∀ k : Fin 1024, lidx_main_v1 i k = ix2 (i 0) k := fun k => funext fun a => Fin.ext (by
    match a with
    | ⟨0, _⟩ => rfl
    | ⟨1, _⟩ => rfl)
  have er : ∀ k : Fin 1024, idx_main_v0 (ridx_main_v1 i k) = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [val_main_v0_apply, el, er, eb]
  rfl

end Cert.ReferenceIdeal.RefScores

end
-- ==== Proof.KernelOperands.lean ====
/-
  The two arrays the host lines build before the kernel is launched, read where the result will read them.

  The weight operand is W with eleven zero rows appended (117 + 11 = 128 rows), transposed to 1024 × 128: at (k, c)
  with c < 117 it is W (c, k). The bias operand is b with eleven zeros appended, reshaped to one row of 128: at (0, c)
  with c < 117 it is b c. The appended zeros sit in columns 117 … 127, which the final slice drops, so only the first
  piece of each concatenation is ever read.
-/
import proofs.«162867_g50491635532034_cont_8to1_c_198_24_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The weight operand as the launch finds it: W over eleven zero rows, transposed. -/
theorem weight_term (c : Dev nD) :
    (V m c main_v2 : S1024x128.Idx → EReal)
      = transpose S1024x128 [1, 0]
          (concatenate S128x1024 0 [⟨S117x1024, m ((c : Thread nD τ).loc main_arg1)⟩,
            ⟨S11x1024, broadcastInDim S11x1024 ![] bcast_S_S11x1024 (constant (F := Ideal) S_ .f32 0x00000000#32)⟩]
            concatenates_S117x1024_S11x1024_S128x1024_d0)
          transposes_S128x1024_S1024x128_1_0 := by
  show StableHlo.after hostOps0 (fun b => m (c, b)) (Proc.devRef .tc main_v2) = _
  after_results <;> rfl

/-- At (k, c), c < 117, the weight operand is W (c, k): the transpose swaps the coordinates, and row c of the
    concatenation lies in its first piece. -/
theorem weight_apply (c : Dev nD) (k : Fin 1024) (j : Fin 117) :
    (V m c main_v2 : S1024x128.Idx → EReal) (ix2 k ⟨j.val, by omega⟩) = m ((c : Thread nD τ).loc main_arg1) (ix2 j k) := by
  rw [weight_term]
  rw [transpose_apply [1, 0] _ transposes_S128x1024_S1024x128_1_0 (ix2 k (⟨j.val, by omega⟩ : Fin 128))
    (ix2 (⟨j.val, by omega⟩ : Fin 128) k) (fun b => match b with
      | ⟨0, _⟩ => rfl
      | ⟨1, _⟩ => rfl)]
  exact concatenate_pair_apply_left 0 _ _ concatenates_S117x1024_S11x1024_S128x1024_d0
    (ix2 (⟨j.val, by omega⟩ : Fin 128) k) rfl (ix2 j k) (fun b => match b with
      | ⟨0, _⟩ => rfl
      | ⟨1, _⟩ => rfl)

/-- The bias operand as the launch finds it: b over eleven zeros, as one row. -/
theorem bias_term (c : Dev nD) :
    (V m c main_v5 : S1x128.Idx → EReal)
      = shapeCast S1x128
          (concatenate S128 0 [⟨S117, m ((c : Thread nD τ).loc main_arg2)⟩,
            ⟨S11, broadcastInDim S11 ![] bcast_S_S11 (constant (F := Ideal) S_ .f32 0x00000000#32)⟩]
            concatenates_S117_S11_S128_d0)
          shapeCasts_S128_S1x128 := by
  show StableHlo.after hostOps0 (fun b => m (c, b)) (Proc.devRef .tc main_v5) = _
  after_results <;> rfl

/-- At (0, c), c < 117, the bias operand is b c: the one row keeps the positions, and position c of the concatenation lies
    in its first piece. -/
theorem bias_apply (c : Dev nD) (j : Fin 117) :
    (V m c main_v5 : S1x128.Idx → EReal) (ix2 (0 : Fin 1) ⟨j.val, by omega⟩) = m ((c : Thread nD τ).loc main_arg2) (ix1 j) := by
  rw [bias_term]
  rw [shapeCast_apply _ shapeCasts_S128_S1x128 (ix2 (0 : Fin 1) (⟨j.val, by omega⟩ : Fin 128)) (ix1 (⟨j.val, by omega⟩ : Fin 128)) (by
    rw [Shape.rowMajor_val_one, Shape.rowMajor_val_two]
    show j.val = 0 * 128 + j.val
    omega)]
  exact concatenate_pair_apply_left 0 _ _ concatenates_S117_S11_S128_d0
    (ix1 (⟨j.val, by omega⟩ : Fin 128)) rfl (ix1 j) (fun b => match b with
      | ⟨0, _⟩ => rfl)

end Cert.KernelIdeal.Operands

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.KernelTile.lean ====
/-
  What the kernel body stores at one grid point, read at an index of its 2000 × 128 tile: the product of the point's
  2000 rows of x with the whole 1024 × 128 transposed weight, accumulated into zero, plus the one bias row broadcast down
  the tile. At (p, q) that is the sum over k of rows (p, k) · weight (k, q), plus bias (0, q).
-/
import proofs.«162867_g50491635532034_cont_8to1_c_198_24_alg».proof.Proof.Gen.KernelIdeal.Skeleton
import proofs.«162867_g50491635532034_cont_8to1_c_198_24_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The stored tile at (p, q): the tile product's sum over the contracted coordinate, plus the bias row's entry. -/
theorem tile_apply (rows : Vec Ideal S2000x1024 .f32) (wt : Vec Ideal S1024x128 .f32) (bias : Vec Ideal S1x128 .f32)
    (p : Fin 2000) (q : Fin 128) :
    k0_pay1 (F := Ideal) rows wt bias (ix2 p q)
      = ∑ k : Fin 1024, rows (ix2 p k) * wt (ix2 k q) + bias (ix2 (0 : Fin 1) q) := by
  unfold k0_pay1
  rw [shapeCast_self, shapeCast_self, addf_apply]
  simp only [matmul]
  rw [PlainDot.matmul_zero_plain dot_S2000x1024_S1024x128_S2000x128_1_0_0_1_n_n rfl rfl rfl rfl rfl rfl]
  rw [broadcastTo_apply bias broadcasts_S1x128_S2000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])]

end Cert.KernelIdeal.Tile

end
-- ==== Proof.KernelArray.lean ====
/-
  From the ten tiles to the whole 20000 × 128 array.

  Grid point t takes rows 2000·t … 2000·t + 1999 of x, the whole transposed weight and the whole bias row, and writes
  back rows 2000·t … 2000·t + 1999 of the output. So what point t writes is the restriction to those rows of ONE
  function of the three operand arrays, `LinearLayer.padded`: at (r, q) the sum over k of x (r, k) · weight (k, q), plus
  bias (0, q). The ten row bands cover every row (row r lies in band r / 2000), so after the last write-back the output
  array is `padded` of the operands as the launch found them.
-/
import proofs.«162867_g50491635532034_cont_8to1_c_198_24_alg».proof.Proof.Gen.KernelIdeal.Frame
import proofs.«162867_g50491635532034_cont_8to1_c_198_24_alg».proof.Proof.Spec
import proofs.«162867_g50491635532034_cont_8to1_c_198_24_alg».proof.Proof.KernelTile
import Idealize.ShloMosaic.Lib.Pipeline.Value
import Idealize.ShloMosaic.Lib.ValueIdx

set_option maxRecDepth 16384

noncomputable section

open scoped BigOperators

namespace Cert.KernelIdeal.Bands

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

theorem zero_offsets : (![0, 0] : Fin 2 → Nat) = fun _ => 0 := funext fun a => by fin_cases a <;> rfl

/-- The tile at a general index of the 2000 × 128 block. -/
theorem tile_at (rows : Vec Ideal S2000x1024 .f32) (wt : Vec Ideal S1024x128 .f32) (bias : Vec Ideal S1x128 .f32)
    (y : S2000x128.Idx) :
    k0_pay1 (F := Ideal) rows wt bias y
      = ∑ k : Fin 1024, rows (ix2 (y 0) k) * wt (ix2 k (y 1)) + bias (ix2 (0 : Fin 1) (y 1)) := by
  obtain ⟨p, q, rfl⟩ : ∃ (p : Fin 2000) (q : Fin 128), y = ix2 p q := ⟨y 0, y 1, eq_ix2 y⟩
  exact Tile.tile_apply rows wt bias p q

/-- Where each window's block sits at point t, decided over the ten points: the rows of x move with the output's row
    band; the weight and the bias are the one whole block; no block is offset along the columns. -/
theorem block_places : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) ≤ 9
    ∧ win0_3.index t (1 : Fin 2) = 0 :=
  (by decide +kernel : ∀ t : Fin grid0.N, _)

/-- Every row band is some point's. -/
theorem band_onto : ∀ q0 : Fin 10, ∃ t : Fin cfg0.N, win0_3.index t = ![q0.val, 0] :=
  (by decide +kernel : ∀ q0 : Fin 10, ∃ t : Fin grid0.N, win0_3.index t = ![q0.val, 0])

/-- What point t writes back is its row band of `padded` of the operand arrays. -/
theorem flushed_eq (c : Dev nD) (t : Fin cfg0.N) :
    (dats m 0 c).flushed 3 t = ((cfg0.win 3).blk t).view.read (Elt Ideal)
      (Cert.LinearLayer.padded (V m c main_arg0) (V m c main_v2) (V m c main_v5)) := by
  show (cfg0.win 3).cut (grid0.coords t) ((dats m 0 c).after 3 t) = _
  rw [after0_3]
  unfold out0_3
  rw [View.canon_unit_zero zero_offsets]
  simp only [View.ld_unit_zero (S := S2000x1024) zero_offsets, View.ld_unit_zero (S := S1024x128) zero_offsets,
    View.ld_unit_zero (S := S1x128) zero_offsets]
  obtain ⟨e0, e1, e2, e3, e4, e5, e6, e7⟩ := block_places t
  funext j
  refine (tile_at (iblk m c 0 t) (iblk m c 1 t) (iblk m c 2 t) ((win0 3).xinj (grid0.coords t) j)).trans ?_
  -- each operand's block is read where the output's row band says: rows of x at the band's rows, the weight and the
  -- bias at their own coordinates
  have hx : ∀ k : Fin 1024, ((cfg0.win 0).blk t).view.emb (ix2 ((win0 3).xinj (grid0.coords t) j 0) k)
      = ix2 ((((cfg0.win 3).blk t).view.emb j) 0) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 1024 + 1 * k.val = k.val; omega
  have hw : ∀ k : Fin 1024, ((cfg0.win 1).blk t).view.emb (ix2 k ((win0 3).xinj (grid0.coords t) j 1))
      = ix2 k ((((cfg0.win 3).blk t).view.emb j) 1) := fun k => by
    funext a; apply Fin.ext
    match a with
    | ⟨0, _⟩ => show win0_1.index t (0 : Fin 2) * 1024 + 1 * k.val = k.val; omega
    | ⟨1, _⟩ => show win0_1.index t (1 : Fin 2) * 128 + 1 * (j 1).val = win0_3.index t (1 : Fin 2) * 128 + 1 * (j 1).val; omega
  have hb : ((cfg0.win 2).blk t).view.emb (ix2 (0 : Fin 1) ((win0 3).xinj (grid0.coords t) j 1))
      = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  show _ = Cert.LinearLayer.padded (V m c main_arg0) (V m c main_v2) (V m c main_v5) (((cfg0.win 3).blk t).view.emb j)
  refine Cert.LinearLayer.padded_of_terms (V m c main_arg0) (V m c main_v2) (V m c main_v5) _ _ _ _
    (fun k => ?_) (fun k => ?_) ?_
  · exact congrArg (V m c main_arg0) (hx k)
  · exact congrArg (V m c main_v2) (hw k)
  · exact congrArg (V m c main_v5) hb

/-- An index of the output array is in point t's band iff each coordinate is in the band's range on its axis. -/
theorem mem_band (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v6).slice (win0_3.rect t)).set ↔ _
  rw [View.set_slice_whole, Rect.mem_set_unit]
  exact Iff.rfl

/-- Every index of the output array lies in the band of the point its row selects, row / 2000. -/
theorem covered (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ := band_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the last write-back: the padded product of the operand arrays as the launch found them. -/
theorem region_array (c : Dev nD) :
    (dats m 0 c).arrAt 3 cfg0.N = Cert.LinearLayer.padded (V m c main_arg0) (V m c main_v2) (V m c main_v5) :=
  (dats m 0 c).arrAt_eq_of_cover 3 _ (fun t _ => flushed_eq m c t) covered

end Cert.KernelIdeal.Bands

end
-- ==== Proof.KernelResult.lean ====
/-
  After the kernel: the host slices the first 117 columns out of the 20000 × 128 array and multiplies by the constant one.
  On the extended reals x · 1 = x for every x, the infinities included, so the result at (r, c) is the padded product at
  (r, c), c < 117 — and there the padded operands are W transposed and b, so it is `LinearLayer.scores` of the three
  arguments. Nothing here asks the inputs to be finite.
-/
import proofs.«162867_g50491635532034_cont_8to1_c_198_24_alg».proof.Proof.Gen.KernelIdeal.Frame
import proofs.«162867_g50491635532034_cont_8to1_c_198_24_alg».proof.Proof.Spec
import proofs.«162867_g50491635532034_cont_8to1_c_198_24_alg».proof.Proof.KernelOperands
import proofs.«162867_g50491635532034_cont_8to1_c_198_24_alg».proof.Proof.KernelArray
import Idealize.ShloMosaic.Lib.IdealHost
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The program's result buffer after the lines that follow the kernel: the slice of the kernel's output array, times the
    constant one broadcast to every entry. -/
theorem tail_term (c : Dev nD) :
    (Pipeline.afterTail₀ cfgs (dats m) 0 (V0 m) [hostOps1] c main_v9 : S20000x117.Idx → EReal)
      = mulf (extractStridedSlice S20000x117 ![0, 0] ((dats m 0 c).arrAt 3 cfg0.N : S20000x128.Idx → EReal)
            slices_S20000x128_S20000x117_0_0)
          (broadcastInDim S20000x117 ![] bcast_S_S20000x117 (constant (F := Ideal) S_ .f32 0x3F800000#32)) := by
  unfold Pipeline.afterTail₀
  show StableHlo.after hostOps1 _ (Proc.devRef .tc main_v9) = _
  after_results
  rw [Pipeline.withArrays_arr spec0 launch0.win.arr_inj c _ _ 3]

/-- The program's result is the layer's result of the three arguments. -/
theorem result_eq (c : Dev nD) :
    (Pipeline.afterTail₀ cfgs (dats m) 0 (V0 m) [hostOps1] c main_v9 : S20000x117.Idx → EReal)
      = Cert.LinearLayer.scores (m ((c : Thread nD τ).loc main_arg0)) (m ((c : Thread nD τ).loc main_arg1))
          (m ((c : Thread nD τ).loc main_arg2)) := by
  rw [tail_term, Bands.region_array]
  funext i
  obtain ⟨r, j, rfl⟩ : ∃ (r : Fin 20000) (j : Fin 117), i = ix2 r j := ⟨i 0, i 1, eq_ix2 i⟩
  rw [mulf_apply, broadcastInDim_scalar_apply, constant_apply, Ideal.ofBits_one_f32, mul_one]
  rw [extractStridedSlice_apply ![0, 0] _ slices_S20000x128_S20000x117_0_0 (ix2 r j) (ix2 r (⟨j.val, by omega⟩ : Fin 128))
    (fun a => match a with
      | ⟨0, _⟩ => by show r.val = 0 + r.val; omega
      | ⟨1, _⟩ => by show j.val = 0 + j.val; omega)]
  rw [V_main_arg0]
  exact Cert.LinearLayer.padded_eq_scores _ _ _ _ _ (fun k j' => Operands.weight_apply m c k j')
    (fun j' => Operands.bias_apply m c j') r j

/-- Every weakly fair execution of the program ends with its result at the layer's result of the arguments, and the
    arguments as they were. -/
theorem run : θ_run defs (onTc (τ := τ) (main (F := Ideal))) ⟨m, fun _ => 0, ρ⟩ (fun r => ∀ c : Dev nD,
      r.2.mem ((c.tc : Thread nD τ).loc main_v9)
        = Cert.LinearLayer.scores (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v9 (Pipeline.mem_restRefs_of main_v9 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.lean ====
/-
  A dense linear layer, scores = x · Wᵀ + b with x : 20000 × 1024, W : 117 × 1024, b : 117, computed two ways.

  The reference transposes W, multiplies, and adds b broadcast down the rows. The kernel pads W with eleven zero rows and
  b with eleven zeros (117 + 11 = 128), transposes the padded weight, and in ten grid steps of 2000 rows each multiplies a
  row band of x by the whole 1024 × 128 weight into a zero accumulator and adds the bias row; the host then keeps the
  first 117 columns and multiplies by the constant one.

  Read on the extended reals both are, at (r, c) with c < 117, the sum over k < 1024 of x (r, k) · W (c, k), plus b c
  (`LinearLayer.scores`): the padding only fills columns 117 … 127, which the slice drops; a product into the zero
  accumulator is the bare sum; the ten row bands tile the rows; and x · 1 = x for every extended real. The two sums have
  the same terms in the same order, so no law that could fail at an infinity is used and the finiteness of the inputs is
  never opened.

  The pieces: Spec (the two functions and their agreement on the first 117 columns), RefScores (the reference's five
  operations are `scores`), KernelTile (one grid step's stored tile at an index), KernelOperands (the padded weight and
  bias read below column 117), KernelArray (the ten tiles are one array), KernelResult (slice, times one, and the run).
  The three frames are the generated ones; the kernel and its idealization differ in no operation, so `preserves` is
  `True`.
-/
import proofs.«162867_g50491635532034_cont_8to1_c_198_24_alg».proof.Defs
import proofs.«162867_g50491635532034_cont_8to1_c_198_24_alg».proof.Proof.Gen.Kernel
import proofs.«162867_g50491635532034_cont_8to1_c_198_24_alg».proof.Proof.Gen.Kernel.Skeleton
import proofs.«162867_g50491635532034_cont_8to1_c_198_24_alg».proof.Proof.Gen.Kernel.Launch
import proofs.«162867_g50491635532034_cont_8to1_c_198_24_alg».proof.Proof.Gen.Kernel.Points
import proofs.«162867_g50491635532034_cont_8to1_c_198_24_alg».proof.Proof.Gen.Kernel.Frame
import proofs.«162867_g50491635532034_cont_8to1_c_198_24_alg».proof.Proof.Gen.KernelIdeal
import proofs.«162867_g50491635532034_cont_8to1_c_198_24_alg».proof.Proof.Gen.KernelIdeal.Skeleton
import proofs.«162867_g50491635532034_cont_8to1_c_198_24_alg».proof.Proof.Gen.KernelIdeal.Launch
import proofs.«162867_g50491635532034_cont_8to1_c_198_24_alg».proof.Proof.Gen.KernelIdeal.Points
import proofs.«162867_g50491635532034_cont_8to1_c_198_24_alg».proof.Proof.Gen.KernelIdeal.Frame
import proofs.«162867_g50491635532034_cont_8to1_c_198_24_alg».proof.Proof.Gen.ReferenceIdeal
import proofs.«162867_g50491635532034_cont_8to1_c_198_24_alg».proof.Proof.Gen.ReferenceIdeal.Run
import proofs.«162867_g50491635532034_cont_8to1_c_198_24_alg».proof.Proof.Gen.ReferenceIdeal.Read
import proofs.«162867_g50491635532034_cont_8to1_c_198_24_alg».proof.Proof.Gen.Pre_finite_inputs
import proofs.«162867_g50491635532034_cont_8to1_c_198_24_alg».proof.Proof.RefScores
import proofs.«162867_g50491635532034_cont_8to1_c_198_24_alg».proof.Proof.KernelResult
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, W and b, the kernel and the reference both end with `scores x W b` in their result. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefScores.ref_eq_scores,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
